-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x256 : Shape := ⟨3, ![32, 512, 256]⟩
abbrev S32x4096x64 : Shape := ⟨3, ![32, 4096, 64]⟩
abbrev S64x256 : Shape := ⟨2, ![64, 256]⟩
abbrev S_ : Shape := ⟨0, ![]⟩
abbrev S64 : Shape := ⟨1, ![64]⟩

class Facts : Prop where
  bcast_S_S32x512x256 : S_.BroadcastsInDim S32x512x256 (![] : Fin 0 → Fin S32x512x256.rank)
  reducesTo_S32x512x256_S_d0_1_2 : S32x512x256.ReducesTo [0, 1, 2] S_
  h_S_ : 0 < S_.numel
  bcast_S_S32x4096x64 : S_.BroadcastsInDim S32x4096x64 (![] : Fin 0 → Fin S32x4096x64.rank)
  reducesTo_S32x4096x64_S_d0_1_2 : S32x4096x64.ReducesTo [0, 1, 2] S_
  bcast_S_S64x256 : S_.BroadcastsInDim S64x256 (![] : Fin 0 → Fin S64x256.rank)
  reducesTo_S64x256_S_d0_1 : S64x256.ReducesTo [0, 1] S_
  reducesTo_S_S_d : S_.ReducesTo [] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S64 .f32 := Host.absf main_arg4
  let main_cst_6 : FVec F S_ .f32 := constant S_ .f32 0x7F800000#32
  let main_v19 : FVec F S64 .f32 := broadcastInDim S64 ![] bcast_S_S64 main_cst_6
  let main_v20 : IVec S64 1 := cmpf .olt main_v18 main_v19
  let main_c_7 : IVec S_ 1 := constantI S_ 1 1#1
  let main_v21 : IVec S_ 1 := (fun x v => Host.reduce IntOp.andi x v reducesTo_S64_S_d0 h_S_) main_v20 main_c_7
  let main_v22 : IVec S_ 1 := andi main_v17 main_v21
  main_v22

def fn {F : FTy → Type} [FloatOps F] (main_arg0 : FVec F S32x512x256 .f32) (main_arg1 : FVec F S32x4096x64 .f32) (main_arg2 : FVec F S64x256 .f32) (main_arg3 : FVec F S_ .f32) (main_arg4 : FVec F S64 .f32) : IVec S_ 1 :=
  let main_v0 : FVec F S32x512x256 .f32 := Host.absf main_arg0
  let main_cst : FVec F S_ .f32 := constant S_ .f32 0x7F800000#32
  let main_v1 : FVec F S32x512x256 .f32 := broadcastInDim S32x512x256 ![] bcast_S_S32x512x256 main_cst
  let main_v2 : IVec S32x512x256 1 := cmpf .olt main_v0 main_v1
  let main_c : IVec S_ 1 := constantI S_ 1 1#1
  let main_v3 : IVec S_ 1 := (fun x v => Host.reduce IntOp.andi x v reducesTo_S32x512x256_S_d0_1_2 h_S_) main_v2 main_c
  let main_v4 : FVec F S32x4096x64 .f32 := Host.absf main_arg1
  let main_cst_0 : FVec F S_ .f32 := constant S_ .f32 0x7F800000#32
  let main_v5 : FVec F S32x4096x64 .f32 := broadcastInDim S32x4096x64 ![] bcast_S_S32x4096x64 main_cst_0
  let main_v6 : IVec S32x4096x64 1 := cmpf .olt main_v4 main_v5
  let main_c_1 : IVec S_ 1 := constantI S_ 1 1#1
  let main_v7 : IVec S_ 1 := (fun x v => Host.reduce IntOp.andi x v reducesTo_S32x4096x64_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg4 main_v13 main_v15 main_c_5
-- ==== Kernel.lean ====
abbrev S32x512x256 : Shape := ⟨3, ![32, 512, 256]⟩
abbrev S32x4096x64 : Shape := ⟨3, ![32, 4096, 64]⟩
abbrev S64x256 : Shape := ⟨2, ![64, 256]⟩
abbrev S_ : Shape := ⟨0, ![]⟩
abbrev S64 : Shape := ⟨1, ![64]⟩
abbrev S1x64 : Shape := ⟨2, ![1, 64]⟩
abbrev S32x512x4096 : Shape := ⟨3, ![32, 512, 4096]⟩
abbrev S1x512x256 : Shape := ⟨3, ![1, 512, 256]⟩
abbrev S1x4096x64 : Shape := ⟨3, ![1, 4096, 64]⟩
abbrev S1x512x4096 : Shape := ⟨3, ![1, 512, 4096]⟩
abbrev S512x256 : Shape := ⟨2, ![512, 256]⟩
abbrev S4096x64 : Shape := ⟨2, ![4096, 64]⟩
abbrev S512x64 : Shape := ⟨2, ![512, 64]⟩
abbrev S512x4096 : Shape := ⟨2, ![512, 4096]⟩

abbrev nBuf : Space → Nat
  | .hbm => 22
  | .vmem => 8
  | .smem => 0
  | _ => 0

abbrev bufTy : (tb : Table) → Fin (tcTables nBuf tb) → BufTy
  | .hbm, ⟨0, _⟩ => ⟨S32x512x256, .f32⟩
  | .hbm, ⟨1, _⟩ => ⟨S32x4096x64, .f32⟩
  | .hbm, ⟨2, _⟩ => ⟨S64x256, .f32⟩
  | .hbm, ⟨3, _⟩ => ⟨S_, .f32⟩
  | .hbm, ⟨4, _⟩ => ⟨S64, .f32⟩
  | .hbm, ⟨5, _⟩ => ⟨S64x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S64x256, .f32⟩
  | .hbm, ⟨10, _⟩ => ⟨S64x256, .f32⟩
  | .hbm, ⟨11, _⟩ => ⟨S64x256, .f32⟩
  | .hbm, ⟨12, _⟩ => ⟨S64x256, .f32⟩
  | .hbm, ⟨13, _⟩ => ⟨S_, .f32⟩
  | .hbm, ⟨14, _⟩ => ⟨S64x256, .f32⟩
  | .hbm, ⟨15, _⟩ => ⟨S64x256, .f32⟩
  | .hbm, ⟨16, _⟩ => ⟨S64x256, .bf16⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S1x64, .f32⟩
  | .hbm, ⟨21, _⟩ => ⟨S32x512x4096, .f32⟩
  | .local _ .vmem, ⟨0, _⟩ => ⟨S1x512x256, .f32⟩
  | .local _ .vmem, ⟨1, _⟩ => ⟨S1x512x256, .f32⟩
  | .local _ .vmem, ⟨2, _⟩ => ⟨S1x4096x64, .f32⟩
  | .local _ .vmem, ⟨3, _⟩ => ⟨S1x4096x64, .f32⟩
  | .local _ .vmem, ⟨4, _⟩ => ⟨S64x256, .bf16⟩
  | .local _ .vmem, ⟨5, _⟩ => ⟨S1x64, .f32⟩
  | .local _ .vmem, ⟨6, _⟩ => ⟨S1x512x4096, .f32⟩
  | .local _ .vmem, ⟨7, _⟩ => ⟨S1x512x4096, .f32⟩
  | _, _ => ⟨S32x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S64x256_S_d0_1 : S64x256.ReducesTo [0, 1] S_
  h_S_ : 0 < S_.numel
  bcast_S_S64x256 : S_.BroadcastsInDim S64x256 (![] : Fin 0 → Fin S64x256.rank)
  bitsLt_bf16_f32 : FTy.bits .bf16 < FTy.bits .f32
  bcast_S_S64 : S_.BroadcastsInDim S64 (![] : Fin 0 → Fin S64.rank)
  shapeCasts_S64_S1x64 : S64.ShapeCasts S1x64
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  dot_S512x256_S64x256_S512x64_1_1_0_0_n_n_wf : DotDims.WF S512x256 S64x256 S512x64 [1] [1] [0] [0] [] []
  dot_S512x64_S4096x64_S512x4096_1_1_0_0_n_n_wf : DotDims.WF S512x64 S4096x64 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S32x512x256.size a
  hwx0_0 : ∀ i : grid0.Coords, EltTy.bits .f32 = 32 ∨ (Rect.block (s := S32x512x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S32x4096x64.size a
  hwx0_1 : ∀ i : grid0.Coords, EltTy.bits .f32 = 32 ∨ (Rect.block (s := S32x4096x64) S1x4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .bf16 = 32 ∨ (Rect.block (s := S64x256) S64x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x4096.size a ≤ S32x512x4096.size a
  hwx0_4 : ∀ i : grid0.Coords, EltTy.bits .f32 = 32 ∨ (Rect.block (s := S32x512x4096) S1x512x4096.size (cc0_transform_4 i) (hinb0_4 i)).WholeWords (EltTy.packing .f32)

variable [Facts₀]

def dot_S512x256_S64x256_S512x64_1_1_0_0_n_n : DotDims S512x256 S64x256 S512x64 where
  lhsContracting := [1]
  rhsContracting := [1]
  lhsNonContracting := [0]
  rhsNonContracting := [0]
  lhsBatch := []
  rhsBatch := []
  wf := dot_S512x256_S64x256_S512x64_1_1_0_0_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512x256 : Shape := ⟨3, ![32, 512, 256]⟩
abbrev S32x4096x64 : Shape := ⟨3, ![32, 4096, 64]⟩
abbrev S64x256 : Shape := ⟨2, ![64, 256]⟩
abbrev S_ : Shape := ⟨0, ![]⟩
abbrev S64 : Shape := ⟨1, ![64]⟩
abbrev S32x512x64 : Shape := ⟨3, ![32, 512, 64]⟩
abbrev S1x1x64 : Shape := ⟨3, ![1, 1, 64]⟩
abbrev S32x512x4096 : Shape := ⟨3, ![32, 512, 4096]⟩

abbrev nBuf : Space → Nat
  | .hbm => 25
  | .vmem => 0
  | .smem => 0
  | _ => 0

abbrev bufTy : (tb : Table) → Fin (tcTables nBuf tb) → BufTy
  | .hbm, ⟨0, _⟩ => ⟨S32x512x256, .f32⟩
  | .hbm, ⟨1, _⟩ => ⟨S32x4096x64, .f32⟩
  | .hbm, ⟨2, _⟩ => ⟨S64x256, .f32⟩
  | .hbm, ⟨3, _⟩ => ⟨S_, .f32⟩
  | .hbm, ⟨4, _⟩ => ⟨S64, .f32⟩
  | .hbm, ⟨5, _⟩ => ⟨S64x256, .f32⟩
  | .hbm, ⟨6, _⟩ => ⟨S64x256, .f32⟩
  | .hbm, ⟨7, _⟩ => ⟨S64x256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64x256, .f32⟩
  | .hbm, ⟨12, _⟩ => ⟨S64x256, .f32⟩
  | .hbm, ⟨13, _⟩ => ⟨S32x512x64, .f32⟩
  | .hbm, ⟨14, _⟩ => ⟨S1x1x64, .f32⟩
  | .hbm, ⟨15, _⟩ => ⟨S32x512x64, .f32⟩
  | .hbm, ⟨16, _⟩ => ⟨S32x512x64, .f32⟩
  | .hbm, ⟨17, _⟩ => ⟨S_, .f32⟩
  | .hbm, ⟨18, _⟩ => ⟨S32x512x64, .f32⟩
  | .hbm, ⟨19, _⟩ => ⟨S32x512x64, .f32⟩
  | .hbm, ⟨20, _⟩ => ⟨S_, .f32⟩
  | .hbm, ⟨21, _⟩ => ⟨S_, .f32⟩
  | .hbm, ⟨22, _⟩ => ⟨S32x512x4096, .f32⟩
  | .hbm, ⟨23, _⟩ => ⟨S32x512x4096, .f32⟩
  | .hbm, ⟨24, _⟩ => ⟨S32x512x4096, .f32⟩
  | _, _ => ⟨S32x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call1_cst : Ref sig .tc := ⟨.hbm, 17, rfl⟩
abbrev main_call1_v0 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S_S64x256 : S_.BroadcastsInDim S64x256 (![] : Fin 0 → Fin S64x256.rank)
  reducesTo_S64x256_S_d0_1 : S64x256.ReducesTo [0, 1] S_
  h_S_ : 0 < S_.numel
  bcast_S64_S1x1x64_2 : S64.BroadcastsInDim S1x1x64 (![2] : Fin 1 → Fin S1x1x64.rank)
  bcast_S1x1x64_S32x512x64_0_1_2 : S1x1x64.BroadcastsInDim S32x512x64 (![0, 1, 2] : Fin 3 → Fin S32x512x64.rank)
  bcast_S_S32x512x64 : S_.BroadcastsInDim S32x512x64 (![] : Fin 0 → Fin S32x512x64.rank)
  bcast_S_S32x512x4096 : S_.BroadcastsInDim S32x512x4096 (![] : Fin 0 → Fin S32x512x4096.rank)
  dot_S32x512x256_S64x256_S32x512x64_2_1_01_0_n_n_wf : DotDims.WF S32x512x256 S64x256 S32x512x64 [2] [1] [0, 1] [0] [] []
  dot_S32x512x64_S32x4096x64_S32x512x4096_2_2_1_1_0_0_wf : DotDims.WF S32x512x64 S32x4096x64 S32x512x4096 [2] [2] [1] [1] [0] [0]

variable [Facts₀]

def dot_S32x512x256_S64x256_S32x512x64_2_1_01_0_n_n : DotDims S32x512x256 S64x256 S32x512x64 where
  lhsContracting := [2]
  rhsContracting := [1]
  lhsNonContracting := [0, 1]
  rhsNonContracting := [0]
  lhsBatch := []
  rhsBatch := []
  wf := dot_S32x512x256_S64x256_S32x512x64_2_1_01_0_n_n_wf
def dot_S32x512x64_S32x4096x64_S32x512x4096_2_2_1_1_0_0 : DotDims S32x512x64 S32x4096x64 S32x512x4096 where
  lhsContracting := [2]
  rhsContracting := [2]
  lhsNonContracting := [1]
  rhsNonContracting := [1]
  lhsBatch := [0]
  rhsBatch := [0]
  wf := dot_S32x512x64_S32x4096x64_S32x512x4096_2_2_1_1_0_0_wf

class Facts : Prop extends Facts₀ where

variable [Facts]
-- ==== Proof.Score.lean ====
/-
  The quantity both programs compute, as one function of the arrays.

  For a batch `bt`, a query row `u` and a map position `s`:

      score uf mp W B bt u s = Σ_{k < 64} max (Σ_{d < 256} uf[bt,u,d] · W[k,d] + B[k]) 0 · mp[bt,s,k]

  a linear layer with weights `W` and bias `B` applied to row `u` of `uf`, a ReLU, and the dot product of the
  resulting 64-vector with row `s` of `mp`, all on the extended reals. The kernel computes it with the weights and
  the bias already multiplied by 1/8; the reference computes it with the plain weights and bias and divides the
  result by √64.
-/
import Idealize.ShloMosaic.PureOps.Ideal
import Idealize.ShloMosaic.Lib.ValueIdx

noncomputable section

namespace Cert.DotHead

open Idealize.ShloMosaic Idealize.ShloMosaic.ValueIdx

/-- The hidden unit `k` of row `(bt, u)`: the affine form `Σ_d uf[bt,u,d] · W[k,d] + B[k]` cut off below at zero. -/
def hidden (uf : (⟨3, ![32, 512, 256]⟩ : Shape).Idx → EReal) (W : (⟨2, ![64, 256]⟩ : Shape).Idx → EReal) (B : Fin 64 → EReal)
    (bt : Fin 32) (u : Fin 512) (k : Fin 64) : EReal :=
  max (∑ d : Fin 256, uf (ix3 bt u d) * W (ix2 k d) + B k) 0

/-- One entry of the score table: the hidden units of row `(bt, u)` against row `(bt, s)` of the map. -/
def score (uf : (⟨3, ![32, 512, 256]⟩ : Shape).Idx → EReal) (mp : (⟨3, ![32, 4096, 64]⟩ : Shape).Idx → EReal)
    (W : (⟨2, ![64, 256]⟩ : Shape).Idx → EReal) (B : Fin 64 → EReal) (bt : Fin 32) (u : Fin 512) (s : Fin 4096) : EReal :=
  ∑ k : Fin 64, hidden uf W B bt u k * mp (ix3 bt s k)

end Cert.DotHead

end
-- ==== Proof.LibReluScale.lean ====
/-
  Scaling a one-hidden-layer ReLU read-out by a nonnegative finite constant, on the extended reals.

  On `EReal` multiplication does not distribute over addition in general (`⊤ + ⊥ = ⊥`), but multiplication by a
  constant `c` with `0 ≤ c` and `c ≠ ⊤` does: it distributes over every finite sum, it commutes with `max`
  (`x ↦ x * c` is monotone), and it fixes `0`. Hence, for arbitrary extended-real arrays `u`, `w`, `b`, `mp`
  (no finiteness assumption on any entry),

      Σ_k max (Σ_d u d * (w k d * c) + b k * c) 0 * mp k  =  (Σ_k max (Σ_d u d * w k d + b k) 0 * mp k) * c :

  scaling the weights and the bias of the affine layer by `c` scales the read-out by `c`.
-/
import Mathlib.Data.EReal.Inv
import Mathlib.Algebra.BigOperators.Group.Finset.Basic

namespace Cert.LibReluScale

/-- Right multiplication by a nonnegative finite constant distributes over a finite sum of extended reals. -/
theorem sum_mul_const {ι : Type*} (s : Finset ι) (f : ι → EReal) {c : EReal} (h0 : 0 ≤ c) (ht : c ≠ ⊤) :
    (∑ i ∈ s, f i) * c = ∑ i ∈ s, f i * c := by
  induction s using Finset.cons_induction with
  | empty => simp
  | cons a s ha ih =>
    rw [Finset.sum_cons, Finset.sum_cons, EReal.right_distrib_of_nonneg_of_ne_top h0 ht, ih]

/-- Right multiplication by a nonnegative constant is monotone on the extended reals, so it commutes with `max`. -/
theorem max_mul_const (a b : EReal) {c : EReal} (h0 : 0 ≤ c) : max a b * c = max (a * c) (b * c) := by
  have hm : Monotone (fun x : EReal => x * c) := fun x y h => mul_le_mul_of_nonneg_right h h0
  exact hm.map_max

/-- One hidden unit: scaling the weights and the bias by `c` scales the rectified affine form by `c`. -/
theorem relu_affine_scale {D : Type*} [Fintype D] (u w : D → EReal) (b : EReal) {c : EReal} (h0 : 0 ≤ c)
    (ht : c ≠ ⊤) : max (∑ d, u d * (w d * c) + b * c) 0 = max (∑ d, u d * w d + b) 0 * c := by
  rw [max_mul_const _ _ h0, zero_mul, EReal.right_distrib_of_nonneg_of_ne_top h0 ht, sum_mul_const _ _ h0 ht]
  simp only [mul_assoc]

/-- The read-out: scaling the weights and the biases of all hidden units by `c` scales the dot product of the
hidden vector with `mp` by `c`. -/
theorem relu_dot_scale {D K : Type*} [Fintype D] [Fintype K] (u : D → EReal) (w : K → D → EReal) (b mp : K → EReal)
    {c : EReal} (h0 : 0 ≤ c) (ht : c ≠ ⊤) :
    ∑ k, max (∑ d, u d * (w k d * c) + b k * c) 0 * mp k = (∑ k, max (∑ d, u d * w k d + b k) 0 * mp k) * c := by
  rw [sum_mul_const _ _ h0 ht]
  refine Finset.sum_congr rfl fun k _ => ?_
  rw [relu_affine_scale u (w k) (b k) h0 ht, mul_right_comm]

end Cert.LibReluScale
-- ==== Proof.ScaleLaw.lean ====
/-
  The law that joins the two programs: computing the score with the weights and the bias multiplied by the
  constant 1/8 gives the score computed with the plain weights and bias, divided by √64.

  Both constants are written in the programs as 32-bit words: `0x3E000000` is the word of 0.125 and `0x42800000`
  is the word of 64.0. On the extended reals the first denotes the real 1/8 and the square root of the second is
  the real 8; division by the nonzero real 8 is multiplication by 1/8; and multiplication by a nonnegative finite
  constant passes through the sums, the `max` and the products of the score (the general lemma is in
  LibReluScale). No entry of any array is assumed finite.
-/
import proofs.«180081_j62130996904140_2_alg».proof.Proof.Score
import proofs.«180081_j62130996904140_2_alg».proof.Proof.LibReluScale
import Idealize.ShloMosaic.PureOps.Ideal
import Idealize.ShloMosaic.PureOps.Ideal.Laws

noncomputable section

namespace Cert.DotHead

open Idealize.ShloMosaic Idealize.ShloMosaic.ValueIdx

/-- The word `0x3E000000` (sign 0, exponent 124, fraction 0) denotes `2^23 · 2^(124 - 127 - 23) = 1/8`. -/
theorem ofBits_eighth : Ideal.ofBits .f32 0x3E000000#32 = ((1 / 8 : ℝ) : EReal) := by
  simp [Ideal.ofBits, Ideal.ieee, -EReal.coe_mul]; norm_num

/-- The word `0x42800000` (sign 0, exponent 133, fraction 0) denotes `2^23 · 2^(133 - 127 - 23) = 64`. -/
theorem ofBits_sixtyfour : Ideal.ofBits .f32 0x42800000#32 = ((64 : ℝ) : EReal) := by
  simp [Ideal.ofBits, Ideal.ieee, -EReal.coe_mul]; norm_num

/-- The square root of the word of 64.0 is the real `8`, since `64 = 8 ^ 2`. -/
theorem sqrt_sixtyfour : Ideal.sqrt (Ideal.ofBits .f32 0x42800000#32) = ((8 : ℝ) : EReal) := by
  have h : (64 : ℝ) = 8 ^ 2 := by norm_num
  rw [ofBits_sixtyfour, Ideal.sqrt_coe, if_neg (by norm_num), h, Real.sqrt_sq (by norm_num)]

/-- Multiplying the weights and the bias by a nonnegative finite constant multiplies the score by it. -/
theorem score_scale (uf : (⟨3, ![32, 512, 256]⟩ : Shape).Idx → EReal) (mp : (⟨3, ![32, 4096, 64]⟩ : Shape).Idx → EReal)
    (W : (⟨2, ![64, 256]⟩ : Shape).Idx → EReal) (B : Fin 64 → EReal) (bt : Fin 32) (u : Fin 512) (s : Fin 4096)
    {c : EReal} (h0 : 0 ≤ c) (ht : c ≠ ⊤) :
    score uf mp (fun j => W j * c) (fun k => B k * c) bt u s = score uf mp W B bt u s * c := by
  unfold score hidden
  exact Cert.LibReluScale.relu_dot_scale (fun d => uf (ix3 bt u d)) (fun k d => W (ix2 k d)) B
    (fun k => mp (ix3 bt s k)) h0 ht

/-- The score with weights and bias multiplied by the word of 0.125 is the plain score divided by the square root
of the word of 64.0. -/
theorem score_eighth_eq_div_sqrt (uf : (⟨3, ![32, 512, 256]⟩ : Shape).Idx → EReal)
    (mp : (⟨3, ![32, 4096, 64]⟩ : Shape).Idx → EReal) (W : (⟨2, ![64, 256]⟩ : Shape).Idx → EReal) (B : Fin 64 → EReal)
    (bt : Fin 32) (u : Fin 512) (s : Fin 4096) :
    score uf mp (fun j => W j * Ideal.ofBits .f32 0x3E000000#32) (fun k => B k * Ideal.ofBits .f32 0x3E000000#32) bt u s
      = Ideal.div (score uf mp W B bt u s) (Ideal.sqrt (Ideal.ofBits .f32 0x42800000#32)) := by
  have h0 : (0 : EReal) ≤ ((1 / 8 : ℝ) : EReal) := EReal.coe_nonneg.mpr (by norm_num)
  rw [sqrt_sixtyfour, Ideal.div_coe (by norm_num : (8 : ℝ) ≠ 0), ofBits_eighth]
  exact score_scale uf mp W B bt u s h0 (EReal.coe_ne_top _)

end Cert.DotHead

end
-- ==== Proof.ReferenceScore.lean ====
/-
  The reference's result at one index.

  Reading the reference one host operation at a time, its last value at the index (bt, u, s) is

      (Σ_{k < 64} max (Σ_{d < 256} x0[bt,u,d] · W[k,d] + x4[k]) 0 · x1[bt,s,k]) / sqrt 64.0

  where W is the reference's normalised weight array (its value number 4, kept closed here). The sum is the score
  of Score.lean with weights W and bias x4, so the reference is that score divided by the square root of the
  literal 64.0.
-/
import proofs.«180081_j62130996904140_2_alg».proof.Proof.Gen.ReferenceIdeal.Read
import proofs.«180081_j62130996904140_2_alg».proof.Proof.Score
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.DotHead

/-! ## The composed index functions are the coordinate constructors -/

/-- The second contraction reads its left operand at (bt, u, k). -/
theorem lidx_v11 (bt : Fin 32) (u : Fin 512) (s : Fin 4096) (k : Fin 64) :
    lidx_main_v11 (ix3 bt u s) k = ix3 bt u k :=
  funext fun a => Fin.ext (by match a with | ⟨0, _⟩ => rfl | ⟨1, _⟩ => rfl | ⟨2, _⟩ => rfl)

/-- The second contraction reads its right operand at (bt, s, k). -/
theorem ridx_v11 (bt : Fin 32) (u : Fin 512) (s : Fin 4096) (k : Fin 64) :
    ridx_main_v11 (ix3 bt u s) k = ix3 bt s k :=
  funext fun a => Fin.ext (by match a with | ⟨0, _⟩ => rfl | ⟨1, _⟩ => rfl | ⟨2, _⟩ => rfl)

/-- The first contraction reads its left operand at (bt, u, d). -/
theorem lidx_v5 (bt : Fin 32) (u : Fin 512) (k : Fin 64) (d : Fin 256) :
    lidx_main_v5 (ix3 bt u k) d = ix3 bt u d :=
  funext fun a => Fin.ext (by match a with | ⟨0, _⟩ => rfl | ⟨1, _⟩ => rfl | ⟨2, _⟩ => rfl)

/-- The first contraction reads the weights at (k, d). -/
theorem ridx_v5 (bt : Fin 32) (u : Fin 512) (k : Fin 64) (d : Fin 256) :
    ridx_main_v5 (ix3 bt u k) d = ix2 k d :=
  funext fun a => Fin.ext (by match a with | ⟨0, _⟩ => rfl | ⟨1, _⟩ => rfl)

/-- The two broadcasts of the bias read it at k. -/
theorem idx_v6_v7 (bt : Fin 32) (u : Fin 512) (k : Fin 64) :
    idx_main_v6 (idx_main_v7 (ix3 bt u k)) = ix1 k :=
  funext fun a => Fin.ext (by match a with | ⟨0, _⟩ => rfl)

/-! ## The reference at an index -/

/-- The reference's result at (bt, u, s) is the score with the reference's normalised weights and the bias x4,
    divided by the square root of the literal 64.0. -/
theorem reference_at (x0 : (⟨S32x512x256, .f32⟩ : BufTy).Contents (Elt Ideal)) (x1 : (⟨S32x4096x64, .f32⟩ : BufTy).Contents (Elt Ideal)) (x2 : (⟨S64x256, .f32⟩ : BufTy).Contents (Elt Ideal)) (x3 : (⟨S_, .f32⟩ : BufTy).Contents (Elt Ideal)) (x4 : (⟨S64, .f32⟩ : BufTy).Contents (Elt Ideal)) (bt : Fin 32) (u : Fin 512) (s : Fin 4096) :
    Read.val_main_v13 (F := Ideal) x0 x1 x2 x3 x4 (ix3 bt u s)
      = Ideal.div (score x0 x1 (Read.val_main_v4 (F := Ideal) x2 x3) (fun k => x4 (ix1 k)) bt u s) (Ideal.sqrt (Ideal.ofBits .f32 0x42800000#32)) := by
  rw [val_main_v13_apply, val_main_v11_apply, val_main_v12_apply, val_main_v10_apply, val_main_cst_apply]
  simp only [val_main_v9_apply, val_main_v8_apply, val_main_v5_apply, val_main_v7_apply, val_main_v6_apply,
    val_main_call1_v0_apply, val_main_call1_cst_apply, lidx_v11, ridx_v11, lidx_v5, ridx_v5, idx_v6_v7,
    Ideal.hostDivf_def, Ideal.hostUnary_sqrt_def, Ideal.maximumf_def, Ideal.addf_def, Ideal.ofBits_def,
    Ideal.ofBits_zero_f32]
  rfl

end Cert.ReferenceIdeal.RefValue

end
-- ==== Proof.KernelBody.lean ====
/-
  What one launch of the kernel body stores, read at an index.

  The body loads a block `q` of 512 query rows (shape [1, 512, 256]), the weight block `w` ([64, 256]), a block `p`
  of 4096 map rows ([1, 4096, 64]) and the bias row `β` ([1, 64]). It multiplies the query rows by the weight rows
  (contracting the 256 features), adds the bias along the 64 hidden units, cuts off below at zero, and multiplies the
  result by the map rows (contracting the 64 hidden units). At the extended reals every change of float format is the
  identity and a product into a zero accumulator is a plain finite sum, so the stored value at `(0, u, s)` is

      Σ_{k < 64} max (Σ_{d < 256} q[0,u,d] · w[k,d] + β[0,k]) 0 · p[0,s,k].
-/
import proofs.«180081_j62130996904140_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

theorem first_lhs0 (i : S512x64.Idx) (q : dot_S512x256_S64x256_S512x64_1_1_0_0_n_n.contr.Idx) : (dot_S512x256_S64x256_S512x64_1_1_0_0_n_n.lhsIdx i q 0).val = (i 0).val := by
  unfold DotDims.lhsIdx
  rw [dif_neg (show ¬(0 : Fin S512x256.rank) ∈ dot_S512x256_S64x256_S512x64_1_1_0_0_n_n.lhsBatch by decide), dif_pos (show (0 : Fin S512x256.rank) ∈ dot_S512x256_S64x256_S512x64_1_1_0_0_n_n.lhsNonContracting by decide)]
  rfl
theorem first_rhs0 (i : S512x64.Idx) (q : dot_S512x256_S64x256_S512x64_1_1_0_0_n_n.contr.Idx) : (dot_S512x256_S64x256_S512x64_1_1_0_0_n_n.rhsIdx i q 0).val = (i 1).val := by
  unfold DotDims.rhsIdx
  rw [dif_neg (show ¬(0 : Fin S64x256.rank) ∈ dot_S512x256_S64x256_S512x64_1_1_0_0_n_n.rhsBatch by decide), dif_pos (show (0 : Fin S64x256.rank) ∈ dot_S512x256_S64x256_S512x64_1_1_0_0_n_n.rhsNonContracting by decide)]
  rfl

/-- The first product at `(u, k)`: row `u` of the left operand against row `k` of the right one, over the 256
    contracted features. -/
theorem rows_dot_weights (l : FVec Ideal S512x256 .bf16) (r : FVec Ideal S64x256 .bf16) (u : Fin 512) (k : Fin 64) :
    matmul dot_S512x256_S64x256_S512x64_1_1_0_0_n_n none l r (constant (F := Ideal) S512x64 .f32 0x00000000#32) (ix2 u k)
      = ∑ d : Fin 256, l (ix2 u d) * r (ix2 k d) := by
  simp only [matmul]
  rw [Ideal.matmul_constant_zero_apply, ← Equiv.sum_comp (contrEquiv1 dot_S512x256_S64x256_S512x64_1_1_0_0_n_n 256 rfl rfl).symm]
  refine Finset.sum_congr rfl fun d _ => ?_
  have hk := contrEquiv1_symm_val dot_S512x256_S64x256_S512x64_1_1_0_0_n_n 256 rfl rfl d
  have el : dot_S512x256_S64x256_S512x64_1_1_0_0_n_n.lhsIdx (ix2 u k) ((contrEquiv1 dot_S512x256_S64x256_S512x64_1_1_0_0_n_n 256 rfl rfl).symm d) = ix2 u d := funext fun ax => Fin.ext (by
    match ax with
    | ⟨0, _⟩ => exact first_lhs0 _ _
    | ⟨1, _⟩ => exact (dot_S512x256_S64x256_S512x64_1_1_0_0_n_n.lhsIdx_val_of_single rfl _ _).trans hk)
  have er : dot_S512x256_S64x256_S512x64_1_1_0_0_n_n.rhsIdx (ix2 u k) ((contrEquiv1 dot_S512x256_S64x256_S512x64_1_1_0_0_n_n 256 rfl rfl).symm d) = ix2 k d := funext fun ax => Fin.ext (by
    match ax with
    | ⟨0, _⟩ => exact first_rhs0 _ _
    | ⟨1, _⟩ => exact (dot_S512x256_S64x256_S512x64_1_1_0_0_n_n.rhsIdx_val_of_single rfl _ _).trans hk)
  rw [el, er]

theorem second_lhs0 (i : S512x4096.Idx) (q : dot_S512x64_S4096x64_S512x4096_1_1_0_0_n_n.contr.Idx) : (dot_S512x64_S4096x64_S512x4096_1_1_0_0_n_n.lhsIdx i q 0).val = (i 0).val := by
  unfold DotDims.lhsIdx
  rw [dif_neg (show ¬(0 : Fin S512x64.rank) ∈ dot_S512x64_S4096x64_S512x4096_1_1_0_0_n_n.lhsBatch by decide), dif_pos (show (0 : Fin S512x64.rank) ∈ dot_S512x64_S4096x64_S512x4096_1_1_0_0_n_n.lhsNonContracting by decide)]
  rfl
theorem second_rhs0 (i : S512x4096.Idx) (q : dot_S512x64_S4096x64_S512x4096_1_1_0_0_n_n.contr.Idx) : (dot_S512x64_S4096x64_S512x4096_1_1_0_0_n_n.rhsIdx i q 0).val = (i 1).val := by
  unfold DotDims.rhsIdx
  rw [dif_neg (show ¬(0 : Fin S4096x64.rank) ∈ dot_S512x64_S4096x64_S512x4096_1_1_0_0_n_n.rhsBatch by decide), dif_pos (show (0 : Fin S4096x64.rank) ∈ dot_S512x64_S4096x64_S512x4096_1_1_0_0_n_n.rhsNonContracting by decide)]
  rfl

/-- The second product at `(u, s)`: row `u` of the left operand against row `s` of the right one, over the 64
    contracted hidden units. -/
theorem hidden_dot_map (l : FVec Ideal S512x64 .bf16) (r : FVec Ideal S4096x64 .bf16) (u : Fin 512) (s : Fin 4096) :
    matmul dot_S512x64_S4096x64_S512x4096_1_1_0_0_n_n none l r (constant (F := Ideal) S512x4096 .f32 0x00000000#32) (ix2 u s)
      = ∑ k : Fin 64, l (ix2 u k) * r (ix2 s k) := by
  simp only [matmul]
  rw [Ideal.matmul_constant_zero_apply, ← Equiv.sum_comp (contrEquiv1 dot_S512x64_S4096x64_S512x4096_1_1_0_0_n_n 64 rfl rfl).symm]
  refine Finset.sum_congr rfl fun k _ => ?_
  have hk := contrEquiv1_symm_val dot_S512x64_S4096x64_S512x4096_1_1_0_0_n_n 64 rfl rfl k
  have el : dot_S512x64_S4096x64_S512x4096_1_1_0_0_n_n.lhsIdx (ix2 u s) ((contrEquiv1 dot_S512x64_S4096x64_S512x4096_1_1_0_0_n_n 64 rfl rfl).symm k) = ix2 u k := funext fun ax => Fin.ext (by
    match ax with
    | ⟨0, _⟩ => exact second_lhs0 _ _
    | ⟨1, _⟩ => exact (dot_S512x64_S4096x64_S512x4096_1_1_0_0_n_n.lhsIdx_val_of_single rfl _ _).trans hk)
  have er : dot_S512x64_S4096x64_S512x4096_1_1_0_0_n_n.rhsIdx (ix2 u s) ((contrEquiv1 dot_S512x64_S4096x64_S512x4096_1_1_0_0_n_n 64 rfl rfl).symm k) = ix2 s k := funext fun ax => Fin.ext (by
    match ax with
    | ⟨0, _⟩ => exact second_rhs0 _ _
    | ⟨1, _⟩ => exact (dot_S512x64_S4096x64_S512x4096_1_1_0_0_n_n.rhsIdx_val_of_single rfl _ _).trans hk)
  rw [el, er]

/-- The stored value at `(0, u, s)`, as the two nested sums of the loaded blocks. -/
theorem stored_at (q : Vec Ideal S1x512x256 .f32) (w : Vec Ideal S64x256 .bf16) (p : Vec Ideal S1x4096x64 .f32)
    (β : Vec Ideal S1x64 .f32) (u : Fin 512) (s : Fin 4096) :
    k0_pay1 (F := Ideal) q w p β (ix3 (0 : Fin 1) u s)
      = ∑ k : Fin 64, max (∑ d : Fin 256, q (ix3 (0 : Fin 1) u d) * w (ix2 k d) + β (ix2 (0 : Fin 1) k)) 0
          * p (ix3 (0 : Fin 1) s k) := by
  unfold k0_pay1
  refine (shapeCast_ab_1ab_apply _ _ (0 : Fin 1) u s).trans ?_
  refine (hidden_dot_map _ _ u s).trans ?_
  refine Finset.sum_congr rfl fun k _ => ?_
  have e1 : ∀ d : Fin 256, (truncf (F := Ideal) .bf16 (shapeCast S512x256 q shapeCasts_S1x512x256_S512x256) bitsLt_bf16_f32) (ix2 u d) = q (ix3 (0 : Fin 1) u d) :=
    fun d => shapeCast_1ab_ab_apply q shapeCasts_S1x512x256_S512x256 u d
  have e2 : (truncf (F := Ideal) .bf16 (shapeCast S4096x64 p shapeCasts_S1x4096x64_S4096x64) bitsLt_bf16_f32) (ix2 s k) = p (ix3 (0 : Fin 1) s k) :=
    shapeCast_1ab_ab_apply p shapeCasts_S1x4096x64_S4096x64 s k
  have e3 : (broadcastTo S512x64 (shapeCast S1x64 β shapeCasts_S1x64_S1x64) broadcasts_S1x64_S512x64 : FVec Ideal S512x64 .f32) (ix2 u k) = β (ix2 (0 : Fin 1) k) := by
    rw [shapeCast_self]
    exact broadcastTo_1b_ab_apply β _ u k
  rw [e2]
  refine congrArg (· * p (ix3 (0 : Fin 1) s k)) ?_
  show max (addf (matmul dot_S512x256_S64x256_S512x64_1_1_0_0_n_n none _ _ _) _ (ix2 u k)) (Ideal.ofBits .f32 0x00000000#32) = _
  rw [Ideal.ofBits_zero_f32, addf_apply, e3, rows_dot_weights, shapeCast_self]
  refine congrArg (fun x => max (x + β (ix2 (0 : Fin 1) k)) 0) ?_
  exact Finset.sum_congr rfl fun d _ => by rw [e1 d]

end Cert.KernelIdeal.Body

end
-- ==== Proof.KernelHost.lean ====
/-
  What the host computes before the kernel is launched, read at an index.

  From the weight matrix `v` ([64, 256]), the gain `g` (a scalar) and the bias `b` ([64]) the host forms the
  normalised weights `normed v g = (g · v) / √(Σ v²)` (one host quotient per entry, by the square root of the sum of
  all squares), multiplies them by the literal 0.125 and hands them to the kernel as its third operand; it multiplies
  the bias by the same literal and hands it over, as one row [1, 64], as the fourth operand. Entry `(k, d)` of the
  third operand is `normed v g (k, d) · 0.125`, entry `(0, k)` of the fourth is `b k · 0.125`; the literal stays
  the word it is printed as.
-/
import proofs.«180081_j62130996904140_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

/-- The normalised weights: the gain times the weight matrix, each entry divided by the square root of the sum of the
    squares of all the matrix's entries. -/
def normed (v : S64x256.Idx → EReal) (g : S_.Idx → EReal) : S64x256.Idx → EReal :=
  Host.divf (F := Ideal) (φ := .f32) (mulf (broadcastInDim S64x256 ![] bcast_S_S64x256 g) v)
    (broadcastInDim S64x256 ![] bcast_S_S64x256
      (Host.sqrt (F := Ideal) (φ := .f32) (Host.reduceAdd (F := Ideal) (φ := .f32) (mulf v v) (constant (F := Ideal) S_ .f32 0x00000000#32) reducesTo_S64x256_S_d0_1 h_S_)))

variable (m : (ℓ : Loc nD τ sig) → Buf (Elt Ideal) ℓ)

/-- The kernel's third operand when the region is entered: the normalised weights times the literal. -/
theorem weights_entry (c : Dev nD) :
    (V m c main_v7 : S64x256.Idx → EReal)
      = truncf (F := Ideal) .bf16 (mulf (normed (m ((c : Thread nD τ).loc main_arg2)) (m ((c : Thread nD τ).loc main_arg3)))
          (broadcastInDim S64x256 ![] bcast_S_S64x256 (constant (F := Ideal) S_ .f32 0x3E000000#32))) bitsLt_bf16_f32 := by
  dsimp only [Gen.V]
  simp only [Gen.hostOps0, Gen.hostOps0_1, List.flatten_cons, List.flatten_nil, List.append_nil, List.cons_append, List.nil_append]
  after_results
  rfl

/-- The kernel's fourth operand when the region is entered: the bias times the literal, as one row. -/
theorem bias_entry (c : Dev nD) :
    (V m c main_v10 : S1x64.Idx → EReal)
      = shapeCast S1x64 (mulf (F := Ideal) (φ := .f32) (m ((c : Thread nD τ).loc main_arg4))
          (broadcastInDim S64 ![] bcast_S_S64 (constant (F := Ideal) S_ .f32 0x3E000000#32))) shapeCasts_S64_S1x64 := by
  dsimp only [Gen.V]
  simp only [Gen.hostOps0, Gen.hostOps0_1, List.flatten_cons, List.flatten_nil, List.append_nil, List.cons_append, List.nil_append]
  after_results
  rfl

/-- Entry `(k, d)` of the third operand. -/
theorem weights_at (c : Dev nD) (k : Fin 64) (d : Fin 256) :
    (V m c main_v7 : S64x256.Idx → EReal) (ix2 k d)
      = normed (m ((c : Thread nD τ).loc main_arg2)) (m ((c : Thread nD τ).loc main_arg3)) (ix2 k d) * Ideal.ofBits .f32 0x3E000000#32 := by
  rw [weights_entry]
  show _ * (broadcastInDim S64x256 ![] bcast_S_S64x256 (constant (F := Ideal) S_ .f32 0x3E000000#32)) (ix2 k d) = _
  rw [broadcastInDim_apply _ bcast_S_S64x256 _ (ix2 k d) ix0 (fun a => a.elim0)]
  rfl

/-- Entry `(0, k)` of the fourth operand (`b` names the bias array as launched). -/
theorem bias_at (c : Dev nD) (b : S64.Idx → EReal) (hb : b = m ((c : Thread nD τ).loc main_arg4)) (k : Fin 64) :
    (V m c main_v10 : S1x64.Idx → EReal) (ix2 (0 : Fin 1) k) = b (ix1 k) * Ideal.ofBits .f32 0x3E000000#32 := by
  subst hb
  rw [bias_entry]
  refine (shapeCast_a_1a_apply _ shapeCasts_S64_S1x64 (0 : Fin 1) k).trans ?_
  show _ * (broadcastInDim S64 ![] bcast_S_S64 (constant (F := Ideal) S_ .f32 0x3E000000#32)) (ix1 k) = _
  rw [broadcastInDim_apply _ bcast_S_S64 _ (ix1 k) ix0 (fun a => a.elim0)]
  rfl

end Cert.KernelIdeal.Host

end
-- ==== Proof.KernelValue.lean ====
/-
  The array the kernel's program leaves, as one function of the argument arrays.

  The grid has 32 points, one per batch. At point `t` the pipeline hands the body rows `t` of the query array and of
  the map array (blocks [1, 512, 256] and [1, 4096, 64] at block index `(t, 0, 0)`), the whole scaled weight matrix
  and the whole scaled bias row (block index `(0, 0)` at every point), and writes the body's [1, 512, 4096] result back
  as block `(t, 0, 0)` of the output. So entry `(bt, u, s)` of the output is what the body stores at `(0, u, s)` at
  point `bt`: the score of `(bt, u, s)` with the weights and the bias the host scaled by the literal 0.125. The 32
  blocks tile the output, so the whole array is that function.
-/
import proofs.«180081_j62130996904140_2_alg».proof.Proof.Gen.KernelIdeal.Value
import proofs.«180081_j62130996904140_2_alg».proof.Proof.KernelBody
import proofs.«180081_j62130996904140_2_alg».proof.Proof.KernelHost
import proofs.«180081_j62130996904140_2_alg».proof.Proof.Score

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.DotHead

/-- The score table with the host's scaled parameters: weights `normed v g · 0.125`, bias `b · 0.125` (the literal
    as the word the program spells). -/
def scaledScore (uf : S32x512x256.Idx → EReal) (mp : S32x4096x64.Idx → EReal) (v : S64x256.Idx → EReal) (g : S_.Idx → EReal)
    (b : S64.Idx → EReal) : S32x512x4096.Idx → EReal :=
  fun i => score uf mp (fun j => Host.normed v g j * Ideal.ofBits .f32 0x3E000000#32)
    (fun k => b (ix1 k) * Ideal.ofBits .f32 0x3E000000#32) (i 0) (i 1) (i 2)

/-- The scaled score at `(bt, u, s)`, written out. -/
theorem scaledScore_at (uf : S32x512x256.Idx → EReal) (mp : S32x4096x64.Idx → EReal) (v : S64x256.Idx → EReal) (g : S_.Idx → EReal)
    (b : S64.Idx → EReal) (bt : Fin 32) (u : Fin 512) (s : Fin 4096) :
    scaledScore uf mp v g b (ix3 bt u s)
      = ∑ k : Fin 64, max (∑ d : Fin 256, uf (ix3 bt u d) * (Host.normed v g (ix2 k d) * Ideal.ofBits .f32 0x3E000000#32)
          + b (ix1 k) * Ideal.ofBits .f32 0x3E000000#32) 0 * mp (ix3 bt s k) := rfl

variable (m : (ℓ : Loc nD τ sig) → Buf (Elt Ideal) ℓ) (ρ : Dev nD → PrngReg)

/-- The output array after the run, on core `c`. -/
abbrev result (c : Dev nD) : S32x512x4096.Idx → EReal :=
  scaledScore (m ((c : Thread nD τ).loc main_arg0)) (m ((c : Thread nD τ).loc main_arg1)) (m ((c : Thread nD τ).loc main_arg2))
    (m ((c : Thread nD τ).loc main_arg3)) (m ((c : Thread nD τ).loc main_arg4))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps over the 32 grid points: the batch-wise windows sit at block `(t, 0, 0)`, the two parameter
    windows at block `(0, 0)`. -/
theorem index_maps : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0) :=
  (by decide +kernel : ∀ t : Fin grid0.N, _)

/-- The batch a grid point works on. -/
def batch (t : Fin cfg0.N) : Fin 32 := ⟨t.val, lt_of_lt_of_eq t.isLt N_0⟩

/-- The query block at point `t` is batch `t` of the query array. -/
theorem query_block (c : Dev nD) (t : Fin cfg0.N) (u : Fin 512) (d : Fin 256) :
    (iblk m c 0 t : Vec Ideal S1x512x256 .f32) (ix3 (0 : Fin 1) u d)
      = (m ((c : Thread nD τ).loc main_arg0) : S32x512x256.Idx → EReal) (ix3 (batch t) u d) := by
  obtain ⟨⟨e0, e1, e2⟩, -, -, -, -⟩ := index_maps t
  unfold iblk
  rw [View.read_apply, ← V_main_arg0 m c]
  show V m c main_arg0 (((cfg0.win 0).blk t).view.emb (ix3 (0 : Fin 1) u d)) = V m c main_arg0 (ix3 (batch t) u d)
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 512 + 1 * u.val = u.val; omega
  | ⟨2, _⟩ => show win0_0.index t (2 : Fin 3) * 256 + 1 * d.val = d.val; omega

/-- The map block at point `t` is batch `t` of the map array. -/
theorem map_block (c : Dev nD) (t : Fin cfg0.N) (s : Fin 4096) (k : Fin 64) :
    (iblk m c 1 t : Vec Ideal S1x4096x64 .f32) (ix3 (0 : Fin 1) s k)
      = (m ((c : Thread nD τ).loc main_arg1) : S32x4096x64.Idx → EReal) (ix3 (batch t) s k) := by
  obtain ⟨-, ⟨e0, e1, e2⟩, -, -, -⟩ := index_maps t
  unfold iblk
  rw [View.read_apply, ← V_main_arg1 m c]
  show V m c main_arg1 (((cfg0.win 1).blk t).view.emb (ix3 (0 : Fin 1) s k)) = V m c main_arg1 (ix3 (batch t) s k)
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 4096 + 1 * s.val = s.val; omega
  | ⟨2, _⟩ => show win0_1.index t (2 : Fin 3) * 64 + 1 * k.val = k.val; omega

/-- The weight block at every point is the whole scaled weight matrix. -/
theorem weight_block (c : Dev nD) (t : Fin cfg0.N) (k : Fin 64) (d : Fin 256) :
    (iblk m c 2 t : Vec Ideal S64x256 .bf16) (ix2 k d)
      = Host.normed (m ((c : Thread nD τ).loc main_arg2)) (m ((c : Thread nD τ).loc main_arg3)) (ix2 k d) * Ideal.ofBits .f32 0x3E000000#32 := by
  obtain ⟨-, -, ⟨e0, e1⟩, -, -⟩ := index_maps t
  rw [← Host.weights_at m c k d]
  unfold iblk
  rw [View.read_apply]
  show V m c main_v7 (((cfg0.win 2).blk t).view.emb (ix2 k d)) = V m c main_v7 (ix2 k d)
  refine congrArg (V m c main_v7) (funext fun a => Fin.ext ?_)
  match a with
  | ⟨0, _⟩ => show win0_2.index t (0 : Fin 2) * 64 + 1 * k.val = k.val; omega
  | ⟨1, _⟩ => show win0_2.index t (1 : Fin 2) * 256 + 1 * d.val = d.val; omega

/-- The bias block at every point is the whole scaled bias row. -/
theorem bias_block (c : Dev nD) (t : Fin cfg0.N) (b : S64.Idx → EReal) (hb : b = m ((c : Thread nD τ).loc main_arg4)) (k : Fin 64) :
    (iblk m c 3 t : Vec Ideal S1x64 .f32) (ix2 (0 : Fin 1) k) = b (ix1 k) * Ideal.ofBits .f32 0x3E000000#32 := by
  obtain ⟨-, -, -, ⟨e0, e1⟩, -⟩ := index_maps t
  rw [← Host.bias_at m c b hb k]
  unfold iblk
  rw [View.read_apply]
  show V m c main_v10 (((cfg0.win 3).blk t).view.emb (ix2 (0 : Fin 1) k)) = V m c main_v10 (ix2 (0 : Fin 1) k)
  refine congrArg (V m c main_v10) (funext fun a => Fin.ext ?_)
  match a with
  | ⟨0, _⟩ => show win0_3.index t (0 : Fin 2) * 1 + 1 * 0 = 0; omega
  | ⟨1, _⟩ => show win0_3.index t (1 : Fin 2) * 64 + 1 * k.val = k.val; omega

/-- What point `t` writes back is block `t` of `result`. -/
theorem flushed_eq (c : Dev nD) (t : Fin cfg0.N) :
    (dats m 0 c).flushed 4 t = ((cfg0.win 4).blk t).view.read (Elt Ideal) (result m c) := by
  obtain ⟨-, -, -, -, ⟨e0, e1, e2⟩⟩ := index_maps t
  rw [Value.flushed4]
  unfold out0_4
  rw [View.canon_unit_zero zeros3]
  simp only [View.ld_unit_zero (S := S1x512x256) zeros3, View.ld_unit_zero (S := S64x256) zeros2,
    View.ld_unit_zero (S := S1x4096x64) zeros3, View.ld_unit_zero (S := S1x64) zeros2]
  funext y
  obtain ⟨z, u, s, rfl⟩ : ∃ (z : Fin 1) (u : Fin 512) (s : Fin 4096), y = ix3 z u s := ⟨y 0, y 1, y 2, eq_ix3 y⟩
  obtain rfl : z = 0 := Subsingleton.elim _ _
  have hemb : ((cfg0.win 4).blk t).view.emb (ix3 (0 : Fin 1) u s) = ix3 (batch t) u s := funext fun a => Fin.ext (by
    match a with
    | ⟨0, _⟩ => show win0_4.index t (0 : Fin 3) * 1 + 1 * 0 = t.val; omega
    | ⟨1, _⟩ => show win0_4.index t (1 : Fin 3) * 512 + 1 * u.val = u.val; omega
    | ⟨2, _⟩ => show win0_4.index t (2 : Fin 3) * 4096 + 1 * s.val = s.val; omega)
  show k0_pay1 (F := Ideal) (iblk m c 0 t) (iblk m c 2 t) (iblk m c 1 t) (iblk m c 3 t) (ix3 (0 : Fin 1) u s)
      = result m c (((cfg0.win 4).blk t).view.emb (ix3 (0 : Fin 1) u s))
  rw [hemb]
  refine (Body.stored_at (iblk m c 0 t) (iblk m c 2 t) (iblk m c 1 t) (iblk m c 3 t) u s).trans ?_
  refine Eq.trans ?_ (scaledScore_at (m ((c : Thread nD τ).loc main_arg0)) (m ((c : Thread nD τ).loc main_arg1)) (m ((c : Thread nD τ).loc main_arg2))
    (m ((c : Thread nD τ).loc main_arg3)) (m ((c : Thread nD τ).loc main_arg4)) (batch t) u s).symm
  refine Finset.sum_congr rfl fun k _ => ?_
  rw [map_block m c t s k, bias_block m c t _ rfl k]
  refine congrArg (fun x => max (x + _) 0 * _) (Finset.sum_congr rfl fun d _ => ?_)
  rw [query_block m c t u d, weight_block m c t k d]

/-- Every index of the output lies in the block of the point of its batch. -/
theorem covered (i : S32x512x4096.Idx) :
    ∃ t : Fin cfg0.N, (cfg0.win 4).flush t = true ∧ i ∈ ((cfg0.win 4).blk t).view.set := by
  have h0 : (i 0).val < 32 := (i 0).isLt
  have h1 : (i 1).val < 512 := (i 1).isLt
  have h2 : (i 2).val < 4096 := (i 2).isLt
  obtain ⟨t, ht⟩ : ∃ t : Fin cfg0.N, t.val = (i 0).val := ⟨⟨(i 0).val, lt_of_lt_of_eq h0 N_0.symm⟩, rfl⟩
  obtain ⟨-, -, -, -, ⟨e0, e1, e2⟩⟩ := index_maps t
  refine ⟨t, flush0_4 t, ?_⟩
  show i ∈ ((View.whole main_v11).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 4096 ≤ (i 2).val ∧ (i 2).val < win0_4.index t (2 : Fin 3) * 4096 + 4096
    omega

/-- The output array after the run is `result`. -/
theorem final (c : Dev nD) : (dats m 0 c).arrAt 4 cfg0.N = result m c :=
  (dats m 0 c).arrAt_eq_of_cover 4 (result m c) (fun t _ => flushed_eq m c t) covered

/-- The run, read: the output array at `result`, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelIdeal.Whole

end
-- ==== Proof.lean ====
/-
  The kernel against its reference, over the extended reals.

  Both programs normalise the weight matrix (`w = g · v / ‖v‖`, one host quotient per entry) and compute, for every batch
  `bt`, query row `u` and map position `s`, the score  Σ_k max (Σ_d uf[bt,u,d] · W[k,d] + B[k]) 0 · mp[bt,s,k]
  (Proof/Score.lean). The reference takes `W = w`, `B = b` and divides the score by √64. The kernel's program multiplies
  `w` and `b` by the literal 0.125 on the host and lets the kernel compute the score of the scaled parameters, one batch
  per grid point (Proof/KernelHost.lean, Proof/KernelBody.lean, Proof/KernelValue.lean). The two agree because
  multiplication by a nonnegative finite constant passes through sums and through the cut-off at zero on the extended
  reals, whatever the entries are — also when the weight matrix is zero and the normalised weights are the quotient 0/0 —
  and because √64 = 8 and a quotient by 8 is the product with 1/8 (Proof/LibReluScale.lean, Proof/ScaleLaw.lean). The
  reference's value at an index is read off its generated run (Proof/ReferenceScore.lean). No finiteness of the inputs
  is used for the values; the three frames are the generated ones.
-/
import proofs.«180081_j62130996904140_2_alg».proof.Defs
import proofs.«180081_j62130996904140_2_alg».proof.Proof.Gen.Kernel
import proofs.«180081_j62130996904140_2_alg».proof.Proof.Gen.Kernel.Skeleton
import proofs.«180081_j62130996904140_2_alg».proof.Proof.Gen.Kernel.Launch
import proofs.«180081_j62130996904140_2_alg».proof.Proof.Gen.Kernel.Points
import proofs.«180081_j62130996904140_2_alg».proof.Proof.Gen.Kernel.Frame
import proofs.«180081_j62130996904140_2_alg».proof.Proof.Gen.KernelIdeal
import proofs.«180081_j62130996904140_2_alg».proof.Proof.Gen.KernelIdeal.Skeleton
import proofs.«180081_j62130996904140_2_alg».proof.Proof.Gen.KernelIdeal.Launch
import proofs.«180081_j62130996904140_2_alg».proof.Proof.Gen.KernelIdeal.Points
import proofs.«180081_j62130996904140_2_alg».proof.Proof.Gen.KernelIdeal.Frame
import proofs.«180081_j62130996904140_2_alg».proof.Proof.Gen.ReferenceIdeal
import proofs.«180081_j62130996904140_2_alg».proof.Proof.Gen.Pre_finite_inputs
import proofs.«180081_j62130996904140_2_alg».proof.Proof.Gen.KernelIdeal.Value
import proofs.«180081_j62130996904140_2_alg».proof.Proof.Gen.ReferenceIdeal.Run
import proofs.«180081_j62130996904140_2_alg».proof.Proof.Gen.ReferenceIdeal.Read
import proofs.«180081_j62130996904140_2_alg».proof.Proof.Score
import proofs.«180081_j62130996904140_2_alg».proof.Proof.ScaleLaw
import proofs.«180081_j62130996904140_2_alg».proof.Proof.ReferenceScore
import proofs.«180081_j62130996904140_2_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

/-- The normalised weights are one term in the two programs: the same host operations of the same two arrays. -/
theorem normed_eq (v : Cert.KernelIdeal.S64x256.Idx → EReal) (g : Cert.KernelIdeal.S_.Idx → EReal) :
    Cert.KernelIdeal.Host.normed v g = Cert.ReferenceIdeal.Read.val_main_v4 (F := Ideal) v g := rfl

/-- The reference's result array is the kernel's: at every index the score of the plain parameters divided by √64 is
    the score of the parameters scaled by 0.125. -/
theorem reference_eq_scaled (uf : Cert.KernelIdeal.S32x512x256.Idx → EReal) (mp : Cert.KernelIdeal.S32x4096x64.Idx → EReal)
    (v : Cert.KernelIdeal.S64x256.Idx → EReal) (g : Cert.KernelIdeal.S_.Idx → EReal) (b : Cert.KernelIdeal.S64.Idx → EReal) :
    Cert.ReferenceIdeal.Read.val_main_v13 (F := Ideal) uf mp v g b = Cert.KernelIdeal.Whole.scaledScore uf mp v g b := by
  funext i
  obtain ⟨bt, u, s, rfl⟩ : ∃ (bt : Fin 32) (u : Fin 512) (s : Fin 4096), i = ix3 bt u s := ⟨i 0, i 1, i 2, eq_ix3 i⟩
  rw [Cert.ReferenceIdeal.RefValue.reference_at, ← normed_eq]
  exact (Cert.DotHead.score_eighth_eq_div_sqrt uf mp (Cert.KernelIdeal.Host.normed v g) (fun k => b (ix1 k)) bt u s).symm

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the score table of the scaled parameters in their result arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2, Cert.ReferenceIdeal.Read.val_main_v13_eq]
  exact reference_eq_scaled _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
